-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x1600000 32) (main_arg2 : FVec F S1600000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S50000 : Shape := ⟨1, ![50000]⟩
abbrev S1650000 : Shape := ⟨1, ![1650000]⟩
abbrev S1650000x1 : Shape := ⟨2, ![1650000, 1]⟩
abbrev S1650000x128 : Shape := ⟨2, ![1650000, 128]⟩
abbrev S1x128 : Shape := ⟨2, ![1, 128]⟩
abbrev S10000x128 : Shape := ⟨2, ![10000, 128]⟩

abbrev nBuf : Space → Nat
  | .hbm => 96
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1600000, .f32⟩
  | .hbm, ⟨9, _⟩ => ⟨S1600000, .f32⟩
  | .hbm, ⟨10, _⟩ => ⟨S_, .f32⟩
  | .hbm, ⟨11, _⟩ => ⟨S1600000, .f32⟩
  | .hbm, ⟨12, _⟩ => ⟨S1600000, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S50000, .i32⟩
  | .hbm, ⟨18, _⟩ => ⟨S1650000, .i32⟩
  | .hbm, ⟨19, _⟩ => ⟨S1650000, .i32⟩
  | .hbm, ⟨20, _⟩ => ⟨S_, .f32⟩
  | .hbm, ⟨21, _⟩ => ⟨S50000, .f32⟩
  | .hbm, ⟨22, _⟩ => ⟨S1650000, .f32⟩
  | .hbm, ⟨23, _⟩ => ⟨S_, .f32⟩
  | .hbm, ⟨24, _⟩ => ⟨S50000, .f32⟩
  | .hbm, ⟨25, _⟩ => ⟨S1650000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .i32⟩
  | .hbm, ⟨43, _⟩ => ⟨S1650000, .i32⟩
  | .hbm, ⟨44, _⟩ => ⟨S1650000, .i1⟩
  | .hbm, ⟨45, _⟩ => ⟨S_, .i32⟩
  | .hbm, ⟨46, _⟩ => ⟨S1650000, .i32⟩
  | .hbm, ⟨47, _⟩ => ⟨S1650000, .i32⟩
  | .hbm, ⟨48, _⟩ => ⟨S1650000, .i32⟩
  | .hbm, ⟨49, _⟩ => ⟨S1650000x1, .i32⟩
  | .hbm, ⟨50, _⟩ => ⟨S1650000, .f32⟩
  | .hbm, ⟨51, _⟩ => ⟨S1650000, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000, .f32⟩
  | .hbm, ⟨61, _⟩ => ⟨S1650000, .f32⟩
  | .hbm, ⟨62, _⟩ => ⟨S_, .i32⟩
  | .hbm, ⟨63, _⟩ => ⟨S1650000, .i32⟩
  | .hbm, ⟨64, _⟩ => ⟨S1650000, .i1⟩
  | .hbm, ⟨65, _⟩ => ⟨S_, .i32⟩
  | .hbm, ⟨66, _⟩ => ⟨S1650000, .i32⟩
  | .hbm, ⟨67, _⟩ => ⟨S1650000, .i32⟩
  | .hbm, ⟨68, _⟩ => ⟨S1650000, .i32⟩
  | .hbm, ⟨69, _⟩ => ⟨S1650000x1, .i32⟩
  | .hbm, ⟨70, _⟩ => ⟨S1650000x128, .f32⟩
  | .hbm, ⟨71, _⟩ => ⟨S1650000x1, .f32⟩
  | .hbm, ⟨72, _⟩ => ⟨S1650000x128, .f32⟩
  | .hbm, ⟨73, _⟩ => ⟨S1650000x128, .f32⟩
  | .hbm, ⟨74, _⟩ => ⟨S_, .f32⟩
  | .hbm, ⟨75, _⟩ => ⟨S50000x128, .f32⟩
  | .hbm, ⟨76, _⟩ => ⟨S1650000x1, .i32⟩
  | .hbm, ⟨77, _⟩ => ⟨S50000x128, .f32⟩
  | .hbm, ⟨78, _⟩ => ⟨S_, .i32⟩
  | .hbm, ⟨79, _⟩ => ⟨S1650000, .i32⟩
  | .hbm, ⟨80, _⟩ => ⟨S1650000, .i1⟩
  | .hbm, ⟨81, _⟩ => ⟨S_, .i32⟩
  | .hbm, ⟨82, _⟩ => ⟨S1650000, .i32⟩
  | .hbm, ⟨83, _⟩ => ⟨S1650000, .i32⟩
  | .hbm, ⟨84, _⟩ => ⟨S1650000, .i32⟩
  | .hbm, ⟨85, _⟩ => ⟨S1650000x1, .i32⟩
  | .hbm, ⟨86, _⟩ => ⟨S1650000x128, .f32⟩
  | .hbm, ⟨87, _⟩ => ⟨S1650000x1, .f32⟩
  | .hbm, ⟨88, _⟩ => ⟨S1650000x128, .f32⟩
  | .hbm, ⟨89, _⟩ => ⟨S1650000x128, .f32⟩
  | .hbm, ⟨90, _⟩ => ⟨S_, .f32⟩
  | .hbm, ⟨91, _⟩ => ⟨S50000x128, .f32⟩
  | .hbm, ⟨92, _⟩ => ⟨S1650000x1, .i32⟩
  | .hbm, ⟨93, _⟩ => ⟨S50000x128, .f32⟩
  | .hbm, ⟨94, _⟩ => ⟨S1x128, .f32⟩
  | .hbm, ⟨95, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_call2_v0 : Ref sig .tc := ⟨.hbm, 39, rfl⟩
abbrev main_call2_v1 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_7 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_c_9 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_10 : Ref sig .tc := ⟨.hbm, 62, rfl⟩
abbrev main_v36 : Ref sig .tc := ⟨.hbm, 63, rfl⟩
abbrev main_v37 : Ref sig .tc := ⟨.hbm, 64, rfl⟩
abbrev main_c_11 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_13 : Ref sig .tc := ⟨.hbm, 78, rfl⟩
abbrev main_v49 : Ref sig .tc := ⟨.hbm, 79, rfl⟩
abbrev main_v50 : Ref sig .tc := ⟨.hbm, 80, rfl⟩
abbrev main_c_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v61) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v62) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S50000 : Shape := ⟨1, ![50000]⟩
abbrev S1650000 : Shape := ⟨1, ![1650000]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1600000, .f32⟩
  | .hbm, ⟨9, _⟩ => ⟨S1600000, .f32⟩
  | .hbm, ⟨10, _⟩ => ⟨S_, .f32⟩
  | .hbm, ⟨11, _⟩ => ⟨S1600000, .f32⟩
  | .hbm, ⟨12, _⟩ => ⟨S1600000, .f32⟩
  | .hbm, ⟨13, _⟩ => ⟨S1600000, .f32⟩
  | .hbm, ⟨14, _⟩ => ⟨S1600000, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S50000, .i32⟩
  | .hbm, ⟨20, _⟩ => ⟨S1650000, .i32⟩
  | .hbm, ⟨21, _⟩ => ⟨S1650000, .i32⟩
  | .hbm, ⟨22, _⟩ => ⟨S_, .f32⟩
  | .hbm, ⟨23, _⟩ => ⟨S50000, .f32⟩
  | .hbm, ⟨24, _⟩ => ⟨S1650000, .f32⟩
  | .hbm, ⟨25, _⟩ => ⟨S_, .f32⟩
  | .hbm, ⟨26, _⟩ => ⟨S50000, .f32⟩
  | .hbm, ⟨27, _⟩ => ⟨S1650000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .i1⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000, .f32⟩
  | .hbm, ⟨53, _⟩ => ⟨S1650000, .f32⟩
  | .hbm, ⟨54, _⟩ => ⟨S_, .i32⟩
  | .hbm, ⟨55, _⟩ => ⟨S1650000, .i32⟩
  | .hbm, ⟨56, _⟩ => ⟨S1650000, .i1⟩
  | .hbm, ⟨57, _⟩ => ⟨S_, .i32⟩
  | .hbm, ⟨58, _⟩ => ⟨S1650000, .i32⟩
  | .hbm, ⟨59, _⟩ => ⟨S1650000, .i32⟩
  | .hbm, ⟨60, _⟩ => ⟨S1650000, .i32⟩
  | .hbm, ⟨61, _⟩ => ⟨S1650000x1, .i32⟩
  | .hbm, ⟨62, _⟩ => ⟨S1650000, .f32⟩
  | .hbm, ⟨63, _⟩ => ⟨S1650000, .f32⟩
  | .hbm, ⟨64, _⟩ => ⟨S_, .i32⟩
  | .hbm, ⟨65, _⟩ => ⟨S1650000, .i32⟩
  | .hbm, ⟨66, _⟩ => ⟨S1650000, .i1⟩
  | .hbm, ⟨67, _⟩ => ⟨S_, .i32⟩
  | .hbm, ⟨68, _⟩ => ⟨S1650000, .i32⟩
  | .hbm, ⟨69, _⟩ => ⟨S1650000, .i32⟩
  | .hbm, ⟨70, _⟩ => ⟨S1650000, .i32⟩
  | .hbm, ⟨71, _⟩ => ⟨S1650000x1, .i32⟩
  | .hbm, ⟨72, _⟩ => ⟨S1650000x128, .f32⟩
  | .hbm, ⟨73, _⟩ => ⟨S1650000x1, .f32⟩
  | .hbm, ⟨74, _⟩ => ⟨S1650000x128, .f32⟩
  | .hbm, ⟨75, _⟩ => ⟨S1650000x128, .f32⟩
  | .hbm, ⟨76, _⟩ => ⟨S_, .f32⟩
  | .hbm, ⟨77, _⟩ => ⟨S50000x128, .f32⟩
  | .hbm, ⟨78, _⟩ => ⟨S1650000x1, .i32⟩
  | .hbm, ⟨79, _⟩ => ⟨S50000x128, .f32⟩
  | .hbm, ⟨80, _⟩ => ⟨S_, .i32⟩
  | .hbm, ⟨81, _⟩ => ⟨S1650000, .i32⟩
  | .hbm, ⟨82, _⟩ => ⟨S1650000, .i1⟩
  | .hbm, ⟨83, _⟩ => ⟨S_, .i32⟩
  | .hbm, ⟨84, _⟩ => ⟨S1650000, .i32⟩
  | .hbm, ⟨85, _⟩ => ⟨S1650000, .i32⟩
  | .hbm, ⟨86, _⟩ => ⟨S1650000, .i32⟩
  | .hbm, ⟨87, _⟩ => ⟨S1650000x1, .i32⟩
  | .hbm, ⟨88, _⟩ => ⟨S1650000x128, .f32⟩
  | .hbm, ⟨89, _⟩ => ⟨S1650000x1, .f32⟩
  | .hbm, ⟨90, _⟩ => ⟨S1650000x128, .f32⟩
  | .hbm, ⟨91, _⟩ => ⟨S1650000x128, .f32⟩
  | .hbm, ⟨92, _⟩ => ⟨S_, .f32⟩
  | .hbm, ⟨93, _⟩ => ⟨S50000x128, .f32⟩
  | .hbm, ⟨94, _⟩ => ⟨S1650000x1, .i32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_v31 : Ref sig .tc := ⟨.hbm, 56, rfl⟩
abbrev main_c_9 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_15 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read one entry at a time, over the extended reals.

  For an M×K array l and a K×N array r, the product's entry (p, q) is the sum over k of l(p, k) * r(k, q). This holds
  of the accelerator's matrix unit started from a zero accumulator and of the host's general dot product alike: both
  are exact sums at the ideal values, and a sum over the one contracted axis is re-indexed by that axis's coordinate.
  Adding a bias row b(q) to every row gives the linear layer's entry, `linRow`: it depends on the left operand only
  through its row p. That is the whole reason a product computed on blocks of rows agrees with the product computed
  on all rows at once.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibPlainDot

open Idealize.ShloMosaic Idealize.ShloMosaic.ValueIdx

/-- The plain product contracts one axis … -/
theorem plain_rank (M K N : ℕ) : (DotDims.plain M K N).contr.rank = 1 := rfl

/-- … of extent K. -/
theorem plain_size (M K N : ℕ) : (DotDims.plain M K N).contr.size ⟨0, by rw [plain_rank]; exact Nat.one_pos⟩ = K := rfl

/-- The contraction positions of a plain product are the K coordinates of the contracted axis. -/
abbrev plainEquiv (M K N : ℕ) : (DotDims.plain M K N).contr.Idx ≃ Fin K :=
  contrEquiv1 (DotDims.plain M K N) K (plain_rank M K N) (plain_size M K N)

/-- At output entry (p, q) and contraction coordinate k the left operand is read at (p, k). -/
theorem plain_lhsIdx (M K N : ℕ) (p : Fin M) (q : Fin N) (k : Fin K) :
    (DotDims.plain M K N).lhsIdx (ix2 p q) ((plainEquiv M K N).symm k) = ix2 p k := by
  funext a
  match a with
  | ⟨0, _⟩ => exact Fin.ext rfl
  | ⟨1, _⟩ =>
    exact Fin.ext ((DotDims.lhsIdx_val_of_single (DotDims.plain M K N) (cl := 1) rfl _ _).trans (contrEquiv1_symm_val _ _ _ _ k))

/-- At output entry (p, q) and contraction coordinate k the right operand is read at (k, q). -/
theorem plain_rhsIdx (M K N : ℕ) (p : Fin M) (q : Fin N) (k : Fin K) :
    (DotDims.plain M K N).rhsIdx (ix2 p q) ((plainEquiv M K N).symm k) = ix2 k q := by
  funext a
  match a with
  | ⟨1, _⟩ => exact Fin.ext rfl
  | ⟨0, _⟩ =>
    exact Fin.ext ((DotDims.rhsIdx_val_of_single (DotDims.plain M K N) (cr := 0) rfl _ _).trans (contrEquiv1_symm_val _ _ _ _ k))

/-- The product's sum over contraction positions is the sum over k of l(p, k) * r(k, q). -/
theorem plain_sum (M K N : ℕ) (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (plainEquiv M K N).symm]
  exact Finset.sum_congr rfl fun k _ => by rw [plain_lhsIdx, plain_rhsIdx]

/-- The matrix unit from a zero accumulator, at entry (p, q). -/
theorem plain_matmul {φ₁ φ₂ : FTy} (M K N : ℕ) (l : FVec Ideal ⟨2, ![M, K]⟩ φ₁) (r : FVec Ideal ⟨2, ![K, N]⟩ φ₂) (p : Fin M) (q : Fin N) :
    FloatOps.matmul (DotDims.plain M K N) none l r (constant _ .f32 0x00000000#32) (ix2 p q) = ∑ k : Fin K, l (ix2 p k) * r (ix2 k q) := by
  rw [Ideal.matmul_constant_zero_apply]; exact plain_sum M K N l r p q

/-- The host's general dot product, at entry (p, q). -/
theorem plain_dotGeneral {φ₁ φ₂ : FTy} (M K N : ℕ) (sched : HostSchedule) (l : FVec Ideal ⟨2, ![M, K]⟩ φ₁) (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply]; exact plain_sum M K N l r p q

/-- One entry of a linear layer: the row x times column c of w, plus the bias at c. -/
def linRow {K C : ℕ} (x : Fin K → EReal) (w : (⟨2, ![K, C]⟩ : Shape).Idx → EReal) (b : (⟨1, ![C]⟩ : Shape).Idx → EReal) (c : Fin C) : EReal :=
  (∑ k : Fin K, x k * w (ix2 k c)) + b (ix1 c)

/-- A bias vector given a leading unit axis and repeated down the rows reads b(q) at (p, q). -/
theorem biasRows_apply {α : Type} {M N : ℕ} (b : (⟨1, ![N]⟩ : Shape).Idx → α) (h : (⟨1, ![N]⟩ : Shape).ShapeCasts ⟨2, ![1, N]⟩)
    (h' : (⟨2, ![1, N]⟩ : Shape).Broadcasts ⟨2, ![M, N]⟩) (p : Fin M) (q : Fin N) :
    broadcastTo ⟨2, ![M, N]⟩ (shapeCast ⟨2, ![1, N]⟩ b h) h' (ix2 p q) = b (ix1 q) := by
  rw [broadcastTo_1b_ab_apply, shapeCast_a_1a_apply]

/-- The host's spelling of the same: the vector laid along axis 1 of a one-row array, that row laid along both axes. -/
theorem biasRowsInDim_apply {α : Type} {M N : ℕ} (b : (⟨1, ![N]⟩ : Shape).Idx → α)
    (h : (⟨1, ![N]⟩ : Shape).BroadcastsInDim ⟨2, ![1, N]⟩ ![1]) (h' : (⟨2, ![1, N]⟩ : Shape).BroadcastsInDim ⟨2, ![M, N]⟩ ![0, 1])
    (p : Fin M) (q : Fin N) :
    broadcastInDim ⟨2, ![M, N]⟩ ![0, 1] h' (broadcastInDim ⟨2, ![1, N]⟩ ![1] h b) (ix2 p q) = b (ix1 q) := by
  rw [broadcastInDim_apply ![0, 1] h' _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply ![1] h b (ix2 (0 : Fin 1) q) (ix1 q) (fun a => by
        match a with
        | ⟨0, _⟩ =>
          show q.val = if N = 1 then 0 else q.val
          split
          · have := q.isLt; omega
          · rfl)]

/-- THE KERNEL'S LINEAR LAYER at entry (p, q): the matrix unit from zero plus the bias rows is the row's `linRow`. -/
theorem matmul_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).ShapeCasts ⟨2, ![1, N]⟩) (h' : (⟨2, ![1, N]⟩ : Shape).Broadcasts ⟨2, ![M, N]⟩) (p : Fin M) (q : Fin N) :
    addf (matmul d none l r (constant ⟨2, ![M, N]⟩ .f32 0x00000000#32)) (broadcastTo ⟨2, ![M, N]⟩ (shapeCast ⟨2, ![1, N]⟩ b h) h') (ix2 p q)
      = linRow (fun k => l (ix2 p k)) r b q := by
  subst hd
  rw [addf_apply, biasRows_apply]
  exact congrArg (· + b (ix1 q)) (plain_matmul M K N l r p q)

/-- THE HOST'S LINEAR LAYER at entry (p, q): the general dot product plus the bias rows is the same `linRow`. -/
theorem dot_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1]) (p : Fin M) (q : Fin N) :
    addf (Host.dotGeneral d none l r) (broadcastInDim ⟨2, ![M, N]⟩ ![0, 1] h' (broadcastInDim ⟨2, ![1, N]⟩ ![1] h b)) (ix2 p q)
      = linRow (fun k => l (ix2 p k)) r b q := by
  subst hd
  rw [addf_apply, biasRowsInDim_apply]
  exact congrArg (· + b (ix1 q)) (plain_dotGeneral M K N _ l r p q)

/-- Two rows that agree entry by entry, through weights and biases that agree, give the same layer entry. -/
theorem linRow_congr {K C : ℕ} {x x' : Fin K → EReal} {w w' : (⟨2, ![K, C]⟩ : Shape).Idx → EReal} {b b' : (⟨1, ![C]⟩ : Shape).Idx → EReal}
    (hx : ∀ k, x k = x' k) (hw : w = w') (hb : b = b') (c : Fin C) : linRow x w b c = linRow x' w' b' c := by
  subst hw; subst hb
  exact congrArg (· + b (ix1 c)) (Finset.sum_congr rfl fun k _ => by rw [hx k])

end Cert.LibPlainDot

end
-- ==== Proof.Payload.lean ====
/-
  What one grid point stores, entry by entry.

  The body loads a block of 10000 rows of the propagated features, the whole 128×128 weight matrix and the bias as a
  one-row array, multiplies the first two on the matrix unit from a zero accumulator and adds the bias row to every row.
  Over the extended reals the narrowing of the operands to sixteen-bit floats is the identity, so entry (p, q) of the
  stored block is the sum over k of x(p, k) · W(k, q), plus b(0, q).
-/
import proofs.«179673_j20074677141980_2_alg».proof.Proof.Gen.KernelIdeal.Skeleton
import proofs.«179673_j20074677141980_2_alg».proof.Proof.LibPlainDot

noncomputable section

namespace Cert.KernelIdeal.Linear

open Cert.KernelIdeal Cert.KernelIdeal.Gen Idealize.ShloMosaic Idealize.ShloMosaic.ValueIdx Cert.LibPlainDot

/-- The body's product contracts the columns of its left operand against the rows of its right one: the plain product. -/
theorem dot_plain : dot_S10000x128_S128x128_S10000x128_1_0_0_1_n_n = DotDims.plain 10000 128 128 := rfl

/-- Entry (p, q) of the stored block: row p of the feature block times column q of the weights, plus the bias at q. -/
theorem pay_at (v0 : FVec Ideal S10000x128 .f32) (v3 : FVec Ideal S128x128 .f32) (v6 : FVec Ideal S1x128 .f32)
    (p : Fin 10000) (q : Fin 128) :
    k0_pay1 (F := Ideal) v0 v3 v6 (ix2 p q) = (∑ k : Fin 128, v0 (ix2 p k) * v3 (ix2 k q)) + v6 (ix2 (0 : Fin 1) q) := by
  unfold k0_pay1
  simp only [shapeCast_self]
  refine (addf_apply _ _ (ix2 p q)).trans ?_
  refine congrArg₂ (· + ·) ?_ (broadcastTo_1b_ab_apply v6 _ p q)
  rw [dot_plain]
  exact plain_matmul 10000 128 128 (truncf .bf16 v0 bitsLt_bf16_f32) (truncf .bf16 v3 bitsLt_bf16_f32) p q

end Cert.KernelIdeal.Linear

end
-- ==== Proof.Blocks.lean ====
/-
  From the blocks to the whole output array.

  The grid has five points; point t handles rows 10000·t … 10000·t + 9999 of the propagated features and writes the same
  rows of the result, while the weight matrix and the bias row are the same whole arrays at every point. Because an entry
  of the linear layer depends on the features only through its own row, what point t writes back is rows
  10000·t … 10000·t + 9999 of ONE whole-array function, `lin X W B`; the five row blocks tile the 50000 rows, so after the
  run the result array is that function of the three arrays the region finds.
-/
import proofs.«179673_j20074677141980_2_alg».proof.Proof.Gen.KernelIdeal.Value
import proofs.«179673_j20074677141980_2_alg».proof.Proof.Payload

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

/-- The linear layer of whole arrays: entry (r, q) is the sum over k of X(r, k) · W(k, q), plus B(0, q). -/
def lin (X : S50000x128.Idx → EReal) (W : S128x128.Idx → EReal) (B : S1x128.Idx → EReal) : S50000x128.Idx → EReal :=
  fun i => (∑ k : Fin 128, X (ix2 (i 0) k) * W (ix2 k (i 1))) + B (ix2 (0 : Fin 1) (i 1))

theorem lin_apply (X : S50000x128.Idx → EReal) (W : S128x128.Idx → EReal) (B : S1x128.Idx → EReal) (r : Fin 50000) (q : Fin 128) :
    lin X W B (ix2 r q) = (∑ k : Fin 128, X (ix2 r k) * W (ix2 k q)) + B (ix2 (0 : Fin 1) q) := rfl

theorem zero_offsets : (![0, 0] : Fin 2 → Nat) = fun _ => 0 := funext fun a => by fin_cases a <;> rfl

/-- The four index maps over the five grid points: the feature and result blocks are block t of the rows, the weights
    and the bias are always their one whole block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 5 := by
  have h := t.isLt
  have hN : cfg0.N = 5 := N_0
  omega

/-- Row p of point t's feature block is row 10000·t + p of the array. -/
theorem features_block (A : S50000x128.Idx → EReal) (t : Fin cfg0.N) (p : Fin 10000) (k : Fin 128) :
    ((cfg0.win 0).blk t).view.read (Elt Ideal) A (ix2 p k)
      = A (ix2 (⟨t.val * 10000 + p.val, by have := point_lt t; have := p.isLt; omega⟩ : Fin 50000) k) := by
  obtain ⟨e0, e1, -⟩ := index_facts t
  show A (((cfg0.win 0).blk t).view.emb (ix2 p k)) = _
  refine congrArg A (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weights' block is the whole matrix. -/
theorem weights_block (A : S128x128.Idx → EReal) (t : Fin cfg0.N) : ((cfg0.win 1).blk t).view.read (Elt Ideal) A = A := by
  obtain ⟨-, -, e0, e1, -⟩ := index_facts t
  funext y
  show A (((cfg0.win 1).blk t).view.emb y) = _
  refine congrArg A (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias's block is the whole one-row array. -/
theorem bias_block (A : S1x128.Idx → EReal) (t : Fin cfg0.N) : ((cfg0.win 2).blk t).view.read (Elt Ideal) A = A := by
  obtain ⟨-, -, -, -, e0, e1, -⟩ := index_facts t
  funext y
  show A (((cfg0.win 2).blk t).view.emb y) = _
  refine congrArg A (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Row p of point t's result block is row 10000·t + p of the array. -/
theorem result_block (A : S50000x128.Idx → EReal) (t : Fin cfg0.N) (p : Fin 10000) (q : Fin 128) :
    ((cfg0.win 3).blk t).view.read (Elt Ideal) A (ix2 p q)
      = A (ix2 (⟨t.val * 10000 + p.val, by have := point_lt t; have := p.isLt; omega⟩ : Fin 50000) q) := by
  obtain ⟨-, -, -, -, -, -, e0, e1⟩ := index_facts t
  show A (((cfg0.win 3).blk t).view.emb (ix2 p q)) = _
  refine congrArg A (funext fun a => Fin.ext ?_)
  match a with
  | ⟨0, _⟩ => show win0_3.index t (0 : Fin 2) * 10000 + 1 * p.val = t.val * 10000 + p.val; omega
  | ⟨1, _⟩ => show win0_3.index t (1 : Fin 2) * 128 + 1 * q.val = q.val; omega

/-- The body's result at a point whose three input blocks are blocks of whole arrays X, W, B is the same rows of
    `lin X W B`. -/
theorem body_is_lin (X : S50000x128.Idx → EReal) (W : S128x128.Idx → EReal) (B : S1x128.Idx → EReal) (t : Fin cfg0.N) :
    out0_3 (F := Ideal) (((cfg0.win 0).blk t).view.read (Elt Ideal) X) (((cfg0.win 1).blk t).view.read (Elt Ideal) W)
        (((cfg0.win 2).blk t).view.read (Elt Ideal) B)
      = ((cfg0.win 3).blk t).view.read (Elt Ideal) (lin X W B) := by
  unfold out0_3
  rw [View.canon_unit_zero zero_offsets]
  simp only [View.ld_unit_zero (S := S10000x128) zero_offsets, View.ld_unit_zero (S := S128x128) zero_offsets,
    View.ld_unit_zero (S := S1x128) zero_offsets]
  rw [weights_block W t, bias_block B t]
  funext j
  obtain ⟨p, q, rfl⟩ : ∃ (p : Fin 10000) (q : Fin 128), j = ix2 p q := ⟨j 0, j 1, eq_ix2 j⟩
  refine (pay_at _ W B p q).trans ?_
  rw [result_block (lin X W B) t p q, lin_apply]
  refine congrArg (· + B (ix2 (0 : Fin 1) q)) (Finset.sum_congr rfl fun k _ => ?_)
  rw [features_block X t p k]

variable (m : (ℓ : Loc nD τ sig) → Buf (Elt Ideal) ℓ)

/-- What point t writes back: its rows of `lin` of the three arrays the region finds. -/
theorem flushed_eq (c : Dev nD) (t : Fin cfg0.N) :
    (dats m 0 c).flushed 3 t
      = ((cfg0.win 3).blk t).view.read (Elt Ideal) (lin (V m c main_v61) (V m c main_arg3) (V m c main_v62)) := by
  rw [Value.flushed3]
  exact body_is_lin (V m c main_v61) (V m c main_arg3) (V m c main_v62) t

/-- An index lies in point t's result block iff its row is one of the block's rows. -/
theorem mem_block (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v63).slice (win0_3.rect t)).set ↔ _
  rw [View.set_slice_whole, Rect.mem_set_unit]
  exact Iff.rfl

/-- Every index of the result is in the block of the point its row falls to. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 5 := N_0
  refine ⟨⟨(i 0).val / 10000, by omega⟩, flush0_3 _, ?_⟩
  obtain ⟨-, -, -, -, -, -, e0, e1⟩ := index_facts ⟨(i 0).val / 10000, by omega⟩
  rw [mem_block]
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e1]; omega

/-- THE RESULT ARRAY after the run is `lin` of the three arrays the region finds. -/
theorem final (c : Dev nD) :
    (dats m 0 c).arrAt 3 cfg0.N = lin (V m c main_v61) (V m c main_arg3) (V m c main_v62) :=
  (dats m 0 c).arrAt_eq_of_cover 3 _ (fun t _ => flushed_eq m c t) covered

end Cert.KernelIdeal.Linear

end
-- ==== Proof.Graph.lean ====
/-
  The graph propagation both programs share, as one function of the node features, the edge list and the edge weights.

  With self-loops appended (a source list `row`, a target list `col`, a weight list `wt` whose last 50000 entries are 1),
  the weighted in-degree of node v is the sum of the weights of the edges into v; `dinv` is its inverse square root where
  the degree is positive and 0 elsewhere; the normalised weight of an edge is dinv(row) · wt · dinv(col); and one hop
  replaces the features by, for every node v, the sum over the edges into v of the source node's features times the edge's
  normalised weight. The result is two hops. Negative indices count from the end, as in the array library the programs
  come from. The only thing the two programs do differently up to here is how they obtain the weights of the given edges,
  so the weights are an argument.
-/
import proofs.«179673_j20074677141980_2_alg».proof.Proof.Gen.KernelIdeal

noncomputable section

namespace Cert.KernelIdeal.Graph

open Cert.KernelIdeal Cert.KernelIdeal.Gen Idealize.ShloMosaic

variable {F : FTy → Type} [FloatOps F]

/-- An index list with negative entries counted from the end (+ 50000), given the trailing index axis a lookup takes. -/
def wrapIdx (v : (⟨S1650000, .i32⟩ : BufTy).Contents (Elt F)) : (⟨S1650000x1, .i32⟩ : BufTy).Contents (Elt F) :=
  broadcastInDim S1650000x1 ![0] bcast_S1650000_S1650000x1_0
    (select (cmpi .slt v (broadcastInDim S1650000 ![] bcast_S_S1650000 (constantI S_ 32 0#32)))
      (addi v (broadcastInDim S1650000 ![] bcast_S_S1650000 (constantI S_ 32 50000#32))) v)

/-- One hop: every node gathers, over the edges into it, the source node's features times the edge's normalised weight. -/
def hop (rowIx colIx : (⟨S1650000x1, .i32⟩ : BufTy).Contents (Elt F)) (norm : (⟨S1650000, .f32⟩ : BufTy).Contents (Elt F))
    (x : (⟨S50000x128, .f32⟩ : BufTy).Contents (Elt F)) : (⟨S50000x128, .f32⟩ : BufTy).Contents (Elt F) :=
  Host.scatterAdd scatter_S50000x128_S1650000x1_S1650000x128_1_0_0_1
    (broadcastInDim S50000x128 ![] bcast_S_S50000x128 (constant S_ .f32 0x00000000#32)) colIx
    (mulf (Host.gather gather_S50000x128_S1650000x1_S1650000x128_1_0_n_n_0_1_1128 x rowIx)
      (broadcastInDim S1650000x128 ![0, 1] bcast_S1650000x1_S1650000x128_0_1
        (broadcastInDim S1650000x1 ![0] bcast_S1650000_S1650000x1_0 norm)))

/-- Two hops of the symmetrically normalised adjacency with self-loops, from edge weights `w`. -/
def propagate (x : (⟨S50000x128, .f32⟩ : BufTy).Contents (Elt F)) (ei : (⟨S2x1600000, .i32⟩ : BufTy).Contents (Elt F))
    (w : (⟨S1600000, .f32⟩ : BufTy).Contents (Elt F)) : (⟨S50000x128, .f32⟩ : BufTy).Contents (Elt F) :=
  let loops : (⟨S50000, .i32⟩ : BufTy).Contents (Elt F) := iotaInDim S50000 32 0
  let row : (⟨S1650000, .i32⟩ : BufTy).Contents (Elt F) :=
    concatenate S1650000 0 [⟨S1600000, shapeCast _ (extractStridedSlice S1x1600000 ![0, 0] ei slices_S2x1600000_S1x1600000_0_0) shapeCasts_S1x1600000_S1600000⟩, ⟨S50000, loops⟩] concatenates_S1600000_S50000_S1650000_d0
  let col : (⟨S1650000, .i32⟩ : BufTy).Contents (Elt F) :=
    concatenate S1650000 0 [⟨S1600000, shapeCast _ (extractStridedSlice S1x1600000 ![1, 0] ei slices_S2x1600000_S1x1600000_1_0) shapeCasts_S1x1600000_S1600000⟩, ⟨S50000, loops⟩] concatenates_S1600000_S50000_S1650000_d0
  let wt : (⟨S1650000, .f32⟩ : BufTy).Contents (Elt F) :=
    concatenate S1650000 0 [⟨S1600000, w⟩, ⟨S50000, broadcastInDim S50000 ![] bcast_S_S50000 (constant S_ .f32 0x3F800000#32)⟩] concatenates_S1600000_S50000_S1650000_d0
  let colIx : (⟨S1650000x1, .i32⟩ : BufTy).Contents (Elt F) := broadcastInDim S1650000x1 ![0] bcast_S1650000_S1650000x1_0 col
  let zeros : (⟨S50000, .f32⟩ : BufTy).Contents (Elt F) := broadcastInDim S50000 ![] bcast_S_S50000 (constant S_ .f32 0x00000000#32)
  let ones : (⟨S50000, .f32⟩ : BufTy).Contents (Elt F) := broadcastInDim S50000 ![] bcast_S_S50000 (constant S_ .f32 0x3F800000#32)
  let deg : (⟨S50000, .f32⟩ : BufTy).Contents (Elt F) := Host.scatterAdd scatter_S50000_S1650000x1_S1650000_n_0_0_1 zeros colIx wt
  let dinv : (⟨S50000, .f32⟩ : BufTy).Contents (Elt F) :=
    select (cmpf .ogt deg zeros) (Host.rsqrt (select (cmpf .ogt deg zeros) deg ones)) zeros
  let norm : (⟨S1650000, .f32⟩ : BufTy).Contents (Elt F) :=
    mulf (mulf (Host.gather gather_S50000_S1650000x1_S1650000_n_0_n_n_0_1_1 dinv (wrapIdx row)) wt)
      (Host.gather gather_S50000_S1650000x1_S1650000_n_0_n_n_0_1_1 dinv (wrapIdx col))
  hop (wrapIdx row) colIx norm (hop (wrapIdx row) colIx norm x)

/-- The edge weights clamped to [-2, 5]. -/
def clipW (w : (⟨S1600000, .f32⟩ : BufTy).Contents (Elt F)) : (⟨S1600000, .f32⟩ : BufTy).Contents (Elt F) :=
  minimumf (broadcastInDim S1600000 ![] bcast_S_S1600000 (constant S_ .f32 0x40A00000#32))
    (maximumf (broadcastInDim S1600000 ![] bcast_S_S1600000 (constant S_ .f32 0xC0000000#32)) w)

end Cert.KernelIdeal.Graph

end
-- ==== Proof.KernelPrefix.lean ====
/-
  What the kernel's region finds in the arrays its windows stage.

  Before the region the kernel's program runs the graph propagation on the host, from the edge weights clamped to [-2, 5],
  and gives the bias a leading unit axis. So the feature window's array holds `propagate x edges (clipW w)` of the launch
  arrays, and the bias window's array the bias as a one-row array; the weight window stages an argument as launched.
-/
import proofs.«179673_j20074677141980_2_alg».proof.Proof.Gen.KernelIdeal.Frame
import proofs.«179673_j20074677141980_2_alg».proof.Proof.Graph
import Idealize.ShloMosaic.Lib.StableHlo.Run

noncomputable section

namespace Cert.KernelIdeal.Graph

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 38000000 in
/-- The feature window's array at region entry: two hops of the propagation from the clamped weights. -/
theorem found_features (c : Dev nD) :
    V m c main_v61 = propagate (F := F) (m ((c.tc : Thread nD τ).loc main_arg0)) (m ((c.tc : Thread nD τ).loc main_arg1))
      (clipW (m ((c.tc : Thread nD τ).loc main_arg2))) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

set_option maxRecDepth 8192 in
set_option maxHeartbeats 38000000 in
/-- The bias window's array at region entry: the bias with a leading unit axis. -/
theorem found_bias (c : Dev nD) :
    V m c main_v62 = shapeCast S1x128 (m ((c.tc : Thread nD τ).loc main_arg4)) shapeCasts_S128_S1x128 := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

end Cert.KernelIdeal.Graph

end
-- ==== Proof.RefSide.lean ====
/-
  The reference, read as the same two functions.

  The reference runs the same graph propagation as the kernel's program, but from weights it spells
  w + (clamp(w) − w); then it multiplies the propagated features by the weight matrix with one general dot product over all
  50000 rows and adds the bias along the rows. Entry by entry that last step is the linear layer `lin`, and for finite
  w the sum w + (clamp(w) − w) is clamp(w): a real number cancels in a sum of extended reals (an infinite one would not).
-/
import proofs.«179673_j20074677141980_2_alg».proof.Proof.Gen.ReferenceIdeal.Read
import proofs.«179673_j20074677141980_2_alg».proof.Proof.Blocks
import proofs.«179673_j20074677141980_2_alg».proof.Proof.Graph

noncomputable section

namespace Cert.ReferenceIdeal.RefValue

open Cert.ReferenceIdeal Cert.ReferenceIdeal.Gen Idealize.ShloMosaic Idealize.ShloMosaic.ValueIdx Cert.LibPlainDot
open Cert.KernelIdeal.Linear (lin lin_apply)

/-- The reference's product contracts the columns of its left operand against the rows of its right one. -/
theorem dot_plain : dot_S50000x128_S128x128_S50000x128_1_0_0_1_n_n = DotDims.plain 50000 128 128 := rfl

/-- The reference's result is the linear layer of its propagated features, the weight matrix and the bias as one row. -/
theorem result_is_lin (x0 : (⟨S50000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) :
    Read.val_main_v67 (F := Ideal) x0 x1 x2 x3 x4
      = lin (Read.val_main_v63 (F := Ideal) x0 x1 x2) x3 (shapeCast Cert.KernelIdeal.S1x128 x4 Cert.KernelIdeal.Gen.shapeCasts_S128_S1x128) := by
  funext i
  obtain ⟨r, q, rfl⟩ : ∃ (r : Fin 50000) (q : Fin 128), i = ix2 r q := ⟨i 0, i 1, eq_ix2 i⟩
  rw [lin_apply]
  unfold Read.val_main_v67 Read.val_main_v64 Read.val_main_v66 Read.val_main_v65
  refine (dot_bias_at 50000 128 128 _ dot_plain (Read.val_main_v63 (F := Ideal) x0 x1 x2) x3 x4 bcast_S128_S1x128_1
    bcast_S1x128_S50000x128_0_1 r q).trans ?_
  unfold linRow
  rw [shapeCast_a_1a_apply]

/-- The reference's propagated features are the shared propagation from the weights the reference computes. -/
theorem features_eq {F : FTy → Type} [FloatOps F] (x0 : (⟨S50000x128, .f32⟩ : BufTy).Contents (Elt F))
    (x1 : (⟨S2x1600000, .i32⟩ : BufTy).Contents (Elt F)) (x2 : (⟨S1600000, .f32⟩ : BufTy).Contents (Elt F)) :
    Read.val_main_v63 (F := F) x0 x1 x2 = Cert.KernelIdeal.Graph.propagate (F := F) x0 x1 (Read.val_main_v2 (F := F) x2) := rfl

/-- A real number cancels from a sum with any extended real. -/
theorem add_sub_cancel_of_real (r : ℝ) (y : EReal) : (r : EReal) + (y - (r : EReal)) = y := by
  induction y using EReal.rec with
  | bot => simp
  | coe s => rw [← EReal.coe_sub, ← EReal.coe_add]; congr 1; ring
  | top => simp

/-- For finite weights the reference's weights are the clamped weights. -/
theorem weights_eq (x2 : (⟨S1600000, .f32⟩ : BufTy).Contents (Elt Ideal)) (hfin : ∀ i, ∃ r : ℝ, x2 i = (r : EReal)) :
    Read.val_main_v2 (F := Ideal) x2 = Cert.KernelIdeal.Graph.clipW (F := Ideal) x2 := by
  funext i
  obtain ⟨r, hr⟩ := hfin i
  show x2 i + (Cert.KernelIdeal.Graph.clipW (F := Ideal) x2 i - x2 i) = _
  rw [hr]
  exact add_sub_cancel_of_real r _

end Cert.ReferenceIdeal.RefValue

end
-- ==== Proof.Finite.lean ====
/-
  The precondition, opened at the edge weights.

  The precondition is the conjunction of four tests "every entry of this array is smaller than +infinity in absolute
  value", one per float argument. The second is about the edge weights: it says that for every edge i the greater of
  w(i) and −w(i) lies below the top element of the extended reals, which excludes both infinities; so w(i) is a real number.
-/
import proofs.«179673_j20074677141980_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Decode

open Idealize.ShloMosaic Cert.Pre_finite_inputs

/-- A scalar array has one index. -/
instance : Subsingleton S_.Idx := ⟨fun a b => funext fun d => d.elim0⟩

/-- The bit pattern the tests compare against denotes +infinity. -/
theorem inf_bits : Ideal.ofBits .f32 0x7F800000#32 = (⊤ : EReal) := by
  simp [Ideal.ofBits, Ideal.ieee]

/-- Under the precondition every edge weight is a real number. -/
theorem weights_real (x0 : FVec Ideal S50000x128 .f32) (x1 : IVec S2x1600000 32) (x2 : FVec Ideal S1600000 .f32)
    (x3 : FVec Ideal S128x128 .f32) (x4 : FVec Ideal S128 .f32)
    (h : fn (F := Ideal) x0 x1 x2 x3 x4 = fun _ => 1#1) (i : S1600000.Idx) : ∃ r : ℝ, x2 i = (r : EReal) := by
  have h0 := congrFun h ValueIdx.ix0
  dsimp only [fn, fn_part1] at h0
  have h1 := (IntOp.andi_eq_one.1 h0).1
  have h2 := (IntOp.andi_eq_one.1 h1).1
  have h3 := (IntOp.andi_eq_one.1 h2).2
  have h4 := Host.reduce_andi_all _ _ _ _ _ h3 i
  have h5 : Ideal.cmp .olt (max (x2 i) (-(x2 i))) (Ideal.ofBits .f32 0x7F800000#32) = 1#1 := h4
  rw [inf_bits] at h5
  generalize x2 i = a at h5 ⊢
  induction a using EReal.rec with
  | bot => exfalso; simp [Ideal.cmp] at h5
  | coe r => exact ⟨r, rfl⟩
  | top => exfalso; simp [Ideal.cmp] at h5

end Cert.Pre_finite_inputs.Decode

end
-- ==== Proof.lean ====
/-
  A two-hop graph convolution followed by a linear layer: the kernel against its reference, over the extended reals.

  Both programs first compute, on the host, the propagated node features: self-loops are appended to the edge list, the
  weighted in-degrees are summed, every edge gets the normalised weight dinv(source) · w · dinv(target), and twice every
  node sums the features of its in-neighbours times those weights (`Graph.propagate`). They differ in two places only.

  1. The edge weights. The kernel's program clamps them to [-2, 5]; the reference writes w + (clamp(w) − w). For a real w
     the two are equal, for an infinite w they are not, so this is where the precondition (every float input finite) is
     used: `Finite.weights_real`, then `RefSide.weights_eq`.
  2. The linear layer X · W + b. The reference takes one dot product over all 50000 rows and adds the bias along the
     rows. The kernel cuts the rows into five blocks of 10000, and on each block multiplies on the matrix unit from a zero
     accumulator (the narrowing of the operands to sixteen bits being the identity on extended reals) and adds the bias
     row. An entry of X · W + b depends on X only through its own row, so block t of the kernel's result is rows
     10000·t … of the one function `Linear.lin X W b` (`Blocks.flushed_eq`), the five blocks tile the rows
     (`Blocks.covered`), and the whole result array is `lin` (`Blocks.final`); the reference's result is the same `lin`
     entry by entry (`RefSide.result_is_lin`). Sums over the contracted axis are finite sums in a commutative monoid, so
     no finiteness is needed here.

  The three frames are the programs' runs with the results dropped, and the idealisation rewrote nothing.
-/
import proofs.«179673_j20074677141980_2_alg».proof.Defs
import proofs.«179673_j20074677141980_2_alg».proof.Proof.Gen.Kernel
import proofs.«179673_j20074677141980_2_alg».proof.Proof.Gen.Kernel.Frame
import proofs.«179673_j20074677141980_2_alg».proof.Proof.Gen.KernelIdeal
import proofs.«179673_j20074677141980_2_alg».proof.Proof.Gen.KernelIdeal.Frame
import proofs.«179673_j20074677141980_2_alg».proof.Proof.Gen.KernelIdeal.Value
import proofs.«179673_j20074677141980_2_alg».proof.Proof.Gen.ReferenceIdeal
import proofs.«179673_j20074677141980_2_alg».proof.Proof.Gen.ReferenceIdeal.Run
import proofs.«179673_j20074677141980_2_alg».proof.Proof.Gen.ReferenceIdeal.Read
import proofs.«179673_j20074677141980_2_alg».proof.Proof.Gen.Pre_finite_inputs
import proofs.«179673_j20074677141980_2_alg».proof.Proof.Blocks
import proofs.«179673_j20074677141980_2_alg».proof.Proof.KernelPrefix
import proofs.«179673_j20074677141980_2_alg».proof.Proof.RefSide
import proofs.«179673_j20074677141980_2_alg».proof.Proof.Finite
import Idealize.ShloMosaic.Adequacy
import Idealize.ShloMosaic.Init

noncomputable section

namespace Cert.Proof

open Idealize.ShloMosaic Idealize.ShloMosaic.TcCoe Idealize.SL.Sem
open Cert.KernelIdeal.Linear (lin)
open Cert.KernelIdeal.Graph (propagate clipW)

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The result both programs end with, as a function of the launch arrays: the linear layer of the features propagated
    from the clamped weights. -/
def result (m : (ℓ : Loc Cert.KernelIdeal.nD Cert.KernelIdeal.τ Cert.KernelIdeal.sig) → Buf (Elt Ideal) ℓ) (c : Dev Cert.KernelIdeal.nD) :
    Cert.KernelIdeal.S50000x128.Idx → EReal :=
  lin (propagate (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (clipW (F := Ideal) (m ((c.tc : Thread Cert.KernelIdeal.nD Cert.KernelIdeal.τ).loc Cert.KernelIdeal.main_arg2))))
    (m ((c.tc : Thread Cert.KernelIdeal.nD Cert.KernelIdeal.τ).loc Cert.KernelIdeal.main_arg3))
    (shapeCast Cert.KernelIdeal.S1x128 (m ((c.tc : Thread Cert.KernelIdeal.nD Cert.KernelIdeal.τ).loc Cert.KernelIdeal.main_arg4))
      Cert.KernelIdeal.Gen.shapeCasts_S128_S1x128)

/-- The kernel's result array after the run. -/
theorem kernel_result (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 3 Cert.KernelIdeal.cfg0.N = result m c := by
  rw [Cert.KernelIdeal.Linear.final m c, Cert.KernelIdeal.Graph.found_features m c, Cert.KernelIdeal.Graph.found_bias m c,
    Cert.KernelIdeal.Gen.V_main_arg3 m c]
  rfl

/-- The reference's result from arrays that agree with the kernel's, under the precondition. -/
theorem reference_result (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v67 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = result m c := by
  rw [Cert.ReferenceIdeal.RefValue.result_is_lin, Cert.ReferenceIdeal.RefValue.features_eq,
    Cert.ReferenceIdeal.RefValue.weights_eq _ (fun i => Cert.Pre_finite_inputs.Decode.weights_real _ _ _ _ _ (hpre c) i)]
  rfl

theorem algebraic : Cert.algebraic_KernelIdeal_ReferenceIdeal := by
  intro m ρ m' ρ' hpre hagree
  refine ⟨fun c => result m c, ?_, ?_⟩
  · exact (θ_run Cert.KernelIdeal.defs _ _).mono (fun r h c => ⟨(h c).1.trans (kernel_result m c), (h c).2⟩)
      (Cert.KernelIdeal.Value.run_blocks m ρ)
  · refine (θ_run Cert.ReferenceIdeal.defs _ _).mono (fun _ h c => ⟨?_, (h c).2⟩)
      (Cert.ReferenceIdeal.Value.run (F := Ideal) m' ρ')
    obtain ⟨a0, a1, a2, a3, a4⟩ := hagree c
    rw [(h c).1, Cert.ReferenceIdeal.Read.val_main_v67_eq, a0, a1, a2, a3, a4]
    exact reference_result m hpre c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
